-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S768x768 : Shape := ⟨2, ![768, 768]⟩
abbrev S768 : Shape := ⟨1, ![768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  main_v23

def fn {F : FTy → Type} [FloatOps F] (main_arg0 : FVec F S8x4096x768 .f32) (main_arg1 : FVec F S768x768 .f32) (main_arg2 : FVec F S768 .f32) (main_arg3 : FVec F S768x768 .f32) (main_arg4 : FVec F S768x768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x4096x768 : Shape := ⟨3, ![8, 4096, 768]⟩
abbrev S768x768 : Shape := ⟨2, ![768, 768]⟩
abbrev S768 : Shape := ⟨1, ![768]⟩
abbrev S32768x768 : Shape := ⟨2, ![32768, 768]⟩
abbrev S1x768 : Shape := ⟨2, ![1, 768]⟩
abbrev S1024x768 : Shape := ⟨2, ![1024, 768]⟩

abbrev nBuf : Space → Nat
  | .hbm => 12
  | .vmem => 7
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S32768x768, .f32⟩
  | .hbm, ⟨6, _⟩ => ⟨S1x768, .f32⟩
  | .hbm, ⟨7, _⟩ => ⟨S768x768, .f32⟩
  | .hbm, ⟨8, _⟩ => ⟨S768x768, .bf16⟩
  | .hbm, ⟨9, _⟩ => ⟨S768x768, .bf16⟩
  | .hbm, ⟨10, _⟩ => ⟨S32768x768, .f32⟩
  | .hbm, ⟨11, _⟩ => ⟨S8x4096x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S768x768, .bf16⟩
  | .local _ .vmem, ⟨4, _⟩ => ⟨S1x768, .f32⟩
  | .local _ .vmem, ⟨5, _⟩ => ⟨S1024x768, .f32⟩
  | .local _ .vmem, ⟨6, _⟩ => ⟨S1024x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096x768_S32768x768 : S8x4096x768.ShapeCasts S32768x768
  shapeCasts_S768_S1x768 : S768.ShapeCasts S1x768
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S32768x768_S8x4096x768 : S32768x768.ShapeCasts S8x4096x768
  dot_S768x768_S768x768_S768x768_1_0_0_1_n_n_wf : DotDims.WF S768x768 S768x768 S768x768 [1] [0] [0] [1] [] []
  dot_S1024x768_S768x768_S1024x768_1_1_0_0_n_n_wf : DotDims.WF S1024x768 S768x768 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x768.size a ≤ S32768x768.size a
  hwx0_4 : ∀ i : grid0.Coords, EltTy.bits .f32 = 32 ∨ (Rect.block (s := S32768x768) S1024x768.size (cc0_transform_4 i) (hinb0_4 i)).WholeWords (EltTy.packing .f32)

variable [Facts₀]

def dot_S768x768_S768x768_S768x768_1_0_0_1_n_n : DotDims S768x768 S768x768 S768x768 where
  lhsContracting := [1]
  rhsContracting := [0]
  lhsNonContracting := [0]
  rhsNonContracting := [1]
  lhsBatch := []
  rhsBatch := []
  wf := dot_S768x768_S768x768_S768x768_1_0_0_1_n_n_wf
def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S768x768 : Shape := ⟨2, ![768, 768]⟩
abbrev S768 : Shape := ⟨1, ![768]⟩
abbrev S_ : Shape := ⟨0, ![]⟩
abbrev S1x1x768 : Shape := ⟨3, ![1, 1, 768]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S8x4096x768, .f32⟩
  | .hbm, ⟨6, _⟩ => ⟨S8x4096x768, .f32⟩
  | .hbm, ⟨7, _⟩ => ⟨S_, .f32⟩
  | .hbm, ⟨8, _⟩ => ⟨S8x4096x768, .f32⟩
  | .hbm, ⟨9, _⟩ => ⟨S8x4096x768, .i1⟩
  | .hbm, ⟨10, _⟩ => ⟨S_, .f32⟩
  | .hbm, ⟨11, _⟩ => ⟨S8x4096x768, .f32⟩
  | .hbm, ⟨12, _⟩ => ⟨S8x4096x768, .f32⟩
  | .hbm, ⟨13, _⟩ => ⟨S8x4096x768, .f32⟩
  | .hbm, ⟨14, _⟩ => ⟨S8x4096x768, .f32⟩
  | .hbm, ⟨15, _⟩ => ⟨S1x1x768, .f32⟩
  | .hbm, ⟨16, _⟩ => ⟨S8x4096x768, .f32⟩
  | .hbm, ⟨17, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S8x4096x768 : S_.BroadcastsInDim S8x4096x768 (![] : Fin 0 → Fin S8x4096x768.rank)
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  dot_S8x4096x768_S768x768_S8x4096x768_2_1_01_0_n_n_wf : DotDims.WF S8x4096x768 S768x768 S8x4096x768 [2] [1] [0, 1] [0] [] []

variable [Facts₀]

def dot_S8x4096x768_S768x768_S8x4096x768_2_1_01_0_n_n : DotDims S8x4096x768 S768x768 S8x4096x768 where
  lhsContracting := [2]
  rhsContracting := [1]
  lhsNonContracting := [0, 1]
  rhsNonContracting := [0]
  lhsBatch := []
  rhsBatch := []
  wf := dot_S8x4096x768_S768x768_S8x4096x768_2_1_01_0_n_n_wf

class Facts : Prop extends Facts₀ where

variable [Facts]
-- ==== Proof.SparseProduct.lean ====
/-
  The algebra that joins the two programs, over abstract finite index types.

  Both programs first rotate a row `x` by `U` (`h d = Σ_c x c · U d c`) and zero every entry of `h` whose magnitude does not
  exceed a threshold. One then multiplies by `W` and by `V` in turn, `Σ_k (Σ_d h d · W k d) · V k`; the other multiplies once
  by the product matrix, `Σ_d h d · (Σ_k V k · W k d)`. The two agree by distributivity and by exchanging the two sums —
  laws that hold among real numbers and fail at the infinities of the extended reals, so the statement asks every entry of
  `x`, `U`, `W` and `V` to be a real.
-/
import Idealize.ShloMosaic.PureOps.Ideal
import Idealize.ShloMosaic.PureOps.Ideal.Laws

noncomputable section

open scoped BigOperators

namespace Cert.SparseProduct

open Idealize.ShloMosaic

/-- One entry threshold-sparsified: kept where its magnitude exceeds the threshold word, zero elsewhere. -/
def sparsify (h : EReal) : EReal :=
  Scalar.select (FloatOps.cmpf (F := Ideal) (φ := .f32) .ogt (FloatOps.absf (F := Ideal) (φ := .f32) h) (Ideal.ofBits .f32 0x3A83126F#32))
    h (Ideal.ofBits .f32 0x00000000#32)

/-- A real entry stays real: it is kept, or replaced by zero. -/
theorem sparsify_coe (r : ℝ) : ∃ s : ℝ, sparsify (r : EReal) = (s : EReal) := by
  unfold sparsify Scalar.select
  split
  · exact ⟨r, rfl⟩
  · exact ⟨0, by rw [Ideal.ofBits_zero_f32]; rfl⟩

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among reals: a row times the product matrix is the row times one factor, then times the other. -/
theorem regroup_real {D K : Type*} [Fintype D] [Fintype K] (h : D → ℝ) (W : K → D → ℝ) (V : K → ℝ) :
    ∑ d, (h d : EReal) * ∑ k, (V k : EReal) * (W k d : EReal)
      = ∑ k, (∑ d, (h d : EReal) * (W k d : EReal)) * (V k : EReal) := by
  have el : ∀ d, (h d : EReal) * ∑ k, (V k : EReal) * (W k d : EReal) = ((h d * ∑ k, V k * W k d : ℝ) : EReal) := fun d => by
    rw [EReal.coe_mul, coe_sum]
    exact congrArg _ (Finset.sum_congr rfl fun k _ => (EReal.coe_mul _ _).symm)
  have er : ∀ k, (∑ d, (h d : EReal) * (W k d : EReal)) * (V k : EReal) = (((∑ d, h d * W k d) * V k : ℝ) : EReal) := fun k => by
    rw [EReal.coe_mul, coe_sum]
    exact congrArg (· * (V k : EReal)) (Finset.sum_congr rfl fun d _ => (EReal.coe_mul _ _).symm)
  rw [Finset.sum_congr rfl fun d _ => el d, Finset.sum_congr rfl fun k _ => er k, ← coe_sum, ← coe_sum]
  refine congrArg _ ?_
  simp only [Finset.mul_sum, Finset.sum_mul]
  rw [Finset.sum_comm]
  exact Finset.sum_congr rfl fun k _ => Finset.sum_congr rfl fun d _ => by ring

/-- The two programs' rows agree when every entry of the four operands is a real: the sparsified rotation of `x` by `U`
    times the product of `V` and `W` is that row times `W`, then times `V`. -/
theorem fused_eq_chained {C D K : Type*} [Fintype C] [Fintype D] [Fintype K]
    (x : C → EReal) (U : D → C → EReal) (W : K → D → EReal) (V : K → EReal)
    (hx : ∀ c, ∃ r : ℝ, x c = r) (hU : ∀ d c, ∃ r : ℝ, U d c = r) (hW : ∀ k d, ∃ r : ℝ, W k d = r) (hV : ∀ k, ∃ r : ℝ, V k = r) :
    ∑ d, sparsify (∑ c, x c * U d c) * ∑ k, V k * W k d
      = ∑ k, (∑ d, sparsify (∑ c, x c * U d c) * W k d) * V k := by
  choose x' hx' using hx
  choose U' hU' using hU
  choose W' hW' using hW
  choose V' hV' using hV
  have hh : ∀ d, ∃ s : ℝ, sparsify (∑ c, x c * U d c) = s := fun d => by
    have e : (∑ c, x c * U d c) = ((∑ c, x' c * U' d c : ℝ) : EReal) := by
      rw [coe_sum]
      exact Finset.sum_congr rfl fun c _ => by rw [hx', hU', EReal.coe_mul]
    rw [e]
    exact sparsify_coe _
  choose h' hh' using hh
  simp only [hh', hW', hV']
  exact regroup_real h' W' V'

end Cert.SparseProduct

end
-- ==== Proof.BodyValue.lean ====
/-
  The kernel body's stored tile, entry by entry. From a tile of rows `X`, the two resident matrices `A` and `B` and the bias
  row, the body stores at row `p` and channel `o` the value `Σ_d s(p,d) · B(o,d) + bias(o)`, where `s(p,d)` is the
  threshold-sparsified `Σ_c X(p,c) · A(d,c)`: each of its two matrix products contracts the LAST axis of both operands
  into a zero accumulator, so reads as a plain sum; the narrowing to sixteen bits is the identity on the extended reals.
-/
import proofs.«173353_j12506944766463_2_alg».proof.Proof.Gen.KernelIdeal.Skeleton
import proofs.«173353_j12506944766463_2_alg».proof.Proof.SparseProduct
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.SparseProduct

variable [Facts]

/-! The operand indices of a product that contracts the last axis of both operands. -/

theorem lhs_row (i : S1024x768.Idx) (q : dot_S1024x768_S768x768_S1024x768_1_1_0_0_n_n.contr.Idx) :
    (dot_S1024x768_S768x768_S1024x768_1_1_0_0_n_n.lhsIdx i q 0).val = (i 0).val := by
  unfold DotDims.lhsIdx
  rw [dif_neg (show ¬(0 : Fin S1024x768.rank) ∈ dot_S1024x768_S768x768_S1024x768_1_1_0_0_n_n.lhsBatch by decide),
    dif_pos (show (0 : Fin S1024x768.rank) ∈ dot_S1024x768_S768x768_S1024x768_1_1_0_0_n_n.lhsNonContracting by decide)]
  rfl
theorem lhs_contr (i : S1024x768.Idx) (q : dot_S1024x768_S768x768_S1024x768_1_1_0_0_n_n.contr.Idx) :
    (dot_S1024x768_S768x768_S1024x768_1_1_0_0_n_n.lhsIdx i q 1).val = (q ⟨0, by decide⟩).val :=
  dot_S1024x768_S768x768_S1024x768_1_1_0_0_n_n.lhsIdx_val_of_single rfl i q
theorem rhs_row (i : S1024x768.Idx) (q : dot_S1024x768_S768x768_S1024x768_1_1_0_0_n_n.contr.Idx) :
    (dot_S1024x768_S768x768_S1024x768_1_1_0_0_n_n.rhsIdx i q 0).val = (i 1).val := by
  unfold DotDims.rhsIdx
  rw [dif_neg (show ¬(0 : Fin S768x768.rank) ∈ dot_S1024x768_S768x768_S1024x768_1_1_0_0_n_n.rhsBatch by decide),
    dif_pos (show (0 : Fin S768x768.rank) ∈ dot_S1024x768_S768x768_S1024x768_1_1_0_0_n_n.rhsNonContracting by decide)]
  rfl
theorem rhs_contr (i : S1024x768.Idx) (q : dot_S1024x768_S768x768_S1024x768_1_1_0_0_n_n.contr.Idx) :
    (dot_S1024x768_S768x768_S1024x768_1_1_0_0_n_n.rhsIdx i q 1).val = (q ⟨0, by decide⟩).val :=
  dot_S1024x768_S768x768_S1024x768_1_1_0_0_n_n.rhsIdx_val_of_single rfl i q

/-- A tile times a matrix, both contracted on their last axis, into the zero accumulator: at `(p, o)` the sum over the
    shared axis of the tile's row `p` times the matrix's row `o`. -/
theorem matmul_last_apply (l : FVec Ideal S1024x768 .bf16) (r : FVec Ideal S768x768 .bf16) (p : Fin 1024) (o : Fin 768) :
    matmul dot_S1024x768_S768x768_S1024x768_1_1_0_0_n_n none l r (constant (F := Ideal) S1024x768 .f32 0x00000000#32) (ix2 p o)
      = ∑ k : Fin 768, l (ix2 p k) * r (ix2 o k) := by
  simp only [matmul]
  rw [Ideal.matmul_constant_zero_apply, ← Equiv.sum_comp (contrEquiv1 dot_S1024x768_S768x768_S1024x768_1_1_0_0_n_n 768 rfl rfl).symm]
  refine Finset.sum_congr rfl fun k _ => ?_
  have hk := contrEquiv1_symm_val dot_S1024x768_S768x768_S1024x768_1_1_0_0_n_n 768 rfl rfl k
  have el : dot_S1024x768_S768x768_S1024x768_1_1_0_0_n_n.lhsIdx (ix2 p o) ((contrEquiv1 dot_S1024x768_S768x768_S1024x768_1_1_0_0_n_n 768 rfl rfl).symm k) = ix2 p k :=
    funext fun a => Fin.ext (by
      match a with
      | ⟨0, _⟩ => exact lhs_row _ _
      | ⟨1, _⟩ => exact (lhs_contr _ _).trans hk)
  have er : dot_S1024x768_S768x768_S1024x768_1_1_0_0_n_n.rhsIdx (ix2 p o) ((contrEquiv1 dot_S1024x768_S768x768_S1024x768_1_1_0_0_n_n 768 rfl rfl).symm k) = ix2 o k :=
    funext fun a => Fin.ext (by
      match a with
      | ⟨0, _⟩ => exact rhs_row _ _
      | ⟨1, _⟩ => exact (rhs_contr _ _).trans hk)
  rw [el, er]

/-- A vector's magnitude read at an index is the entry's magnitude. -/
theorem absf_apply {s : Shape} {φ : FTy} (a : FVec Ideal s φ) (i : s.Idx) : absf a i = FloatOps.absf (a i) := rfl

/-- The stored tile at `(p, o)`. -/
theorem payload_apply (x0 : Vec Ideal S1024x768 .f32) (x1 x2 : Vec Ideal S768x768 .bf16) (x3 : Vec Ideal S1x768 .f32)
    (p : Fin 1024) (o : Fin 768) :
    k0_pay1 (F := Ideal) x0 x1 x2 x3 (ix2 p o)
      = (∑ d : Fin 768, sparsify (∑ c : Fin 768, x0 (ix2 p c) * x1 (ix2 d c)) * x2 (ix2 o d)) + x3 (ix2 (0 : Fin 1) o) := by
  unfold k0_pay1
  simp only [shapeCast_self]
  rw [addf_apply, broadcastTo_1b_ab_apply, matmul_last_apply]
  refine congrArg (· + x3 (ix2 (0 : Fin 1) o)) (Finset.sum_congr rfl fun d _ => ?_)
  refine congrArg (· * x2 (ix2 o d)) ?_
  rw [truncf_apply, select_apply, cmpf_apply, absf_apply, broadcast_apply, broadcast_apply, matmul_last_apply]
  rfl

end Cert.KernelIdeal.BodyValue

end
-- ==== Proof.BlockReads.lean ====
/-
  The windows' blocks. The grid has 32 points; at point `t` the row windows (input and output) are rows
  `1024·t … 1024·t + 1023` of their arrays, and the three resident windows are their whole arrays at every point.
-/
import proofs.«173353_j12506944766463_2_alg».proof.Proof.Gen.KernelIdeal.Frame
import Idealize.ShloMosaic.Lib.Pipeline.Value
import Idealize.ShloMosaic.Lib.ValueIdx

set_option maxRecDepth 16384

noncomputable section

namespace Cert.KernelIdeal.BlockReads

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-- The printed index maps, decided over the grid: the row windows' block index is the point, every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A point is below 32. -/
theorem point_lt (t : Fin cfg0.N) : t.val < 32 := lt_of_lt_of_eq t.isLt N_0

/-- The input rows' block at point `t`: row `p` of the block is row `1024·t + p` of the rows. -/
theorem rows_blk (c : Dev nD) (t : Fin cfg0.N) (p : Fin 1024) (k : Fin 768) (q : Fin 32768) (hq : q.val = t.val * 1024 + p.val) :
    (iblk m c 0 t : S1024x768.Idx → EReal) (ix2 p k) = (V m c main_v0 : S32768x768.Idx → EReal) (ix2 q k) := by
  obtain ⟨e0, e1, -⟩ := index_facts t
  unfold iblk
  rw [View.read_apply]
  show V m c main_v0 _ = V m c main_v0 _
  refine congrArg (V m c main_v0) (funext fun a => Fin.ext ?_)
  match a with
  | ⟨0, _⟩ => show win0_0.index t (0 : Fin 2) * 1024 + 1 * p.val = q.val; rw [e0, hq]; omega
  | ⟨1, _⟩ => show win0_0.index t (1 : Fin 2) * 768 + 1 * k.val = k.val; rw [e1]; omega

/-- The rotation matrix's block is the whole matrix. -/
theorem rot_blk (c : Dev nD) (t : Fin cfg0.N) (j : S768x768.Idx) :
    (iblk m c 1 t : S768x768.Idx → EReal) j = (V m c main_v3 : S768x768.Idx → EReal) j := by
  obtain ⟨-, -, e0, e1, -⟩ := index_facts t
  unfold iblk
  rw [View.read_apply]
  show V m c main_v3 _ = V m c main_v3 _
  refine congrArg (V m c main_v3) (funext fun a => Fin.ext ?_)
  match a with
  | ⟨0, _⟩ => show win0_1.index t (0 : Fin 2) * 768 + 1 * (j 0).val = (j 0).val; rw [e0]; omega
  | ⟨1, _⟩ => show win0_1.index t (1 : Fin 2) * 768 + 1 * (j 1).val = (j 1).val; rw [e1]; omega

/-- The product matrix's block is the whole matrix. -/
theorem prod_blk (c : Dev nD) (t : Fin cfg0.N) (j : S768x768.Idx) :
    (iblk m c 2 t : S768x768.Idx → EReal) j = (V m c main_v4 : S768x768.Idx → EReal) j := by
  obtain ⟨-, -, -, -, e0, e1, -⟩ := index_facts t
  unfold iblk
  rw [View.read_apply]
  show V m c main_v4 _ = V m c main_v4 _
  refine congrArg (V m c main_v4) (funext fun a => Fin.ext ?_)
  match a with
  | ⟨0, _⟩ => show win0_2.index t (0 : Fin 2) * 768 + 1 * (j 0).val = (j 0).val; rw [e0]; omega
  | ⟨1, _⟩ => show win0_2.index t (1 : Fin 2) * 768 + 1 * (j 1).val = (j 1).val; rw [e1]; omega

/-- The bias row's block is the whole row. -/
theorem bias_blk (c : Dev nD) (t : Fin cfg0.N) (j : S1x768.Idx) :
    (iblk m c 3 t : S1x768.Idx → EReal) j = (V m c main_v1 : S1x768.Idx → EReal) j := by
  obtain ⟨-, -, -, -, -, -, e0, e1, -⟩ := index_facts t
  unfold iblk
  rw [View.read_apply]
  show V m c main_v1 _ = V m c main_v1 _
  refine congrArg (V m c main_v1) (funext fun a => Fin.ext ?_)
  match a with
  | ⟨0, _⟩ => show win0_3.index t (0 : Fin 2) * 1 + 1 * (j 0).val = (j 0).val; rw [e0]; omega
  | ⟨1, _⟩ => show win0_3.index t (1 : Fin 2) * 768 + 1 * (j 1).val = (j 1).val; rw [e1]; omega

/-- The output's block at point `t`: row `p` of the block sits at row `1024·t + p` of the output rows. -/
theorem out_emb (t : Fin cfg0.N) (p : Fin 1024) (o : Fin 768) (q : Fin 32768) (hq : q.val = t.val * 1024 + p.val) :
    (((cfg0.win 4).blk t).view.emb (ix2 p o) : S32768x768.Idx) = ix2 q o := by
  obtain ⟨-, -, -, -, -, -, -, -, e0, e1⟩ := index_facts t
  funext a
  apply Fin.ext
  match a with
  | ⟨0, _⟩ => show win0_4.index t (0 : Fin 2) * 1024 + 1 * p.val = q.val; rw [e0, hq]; omega
  | ⟨1, _⟩ => show win0_4.index t (1 : Fin 2) * 768 + 1 * o.val = o.val; rw [e1]; omega

end Cert.KernelIdeal.BlockReads

end
-- ==== Proof.KernelValue.lean ====
/-
  The kernel's result. At every grid point the body writes back one tile of the row function `rowsOut` — the entry formula of
  the body read at the rows the point's blocks cover; the 32 tiles cover the 32768 output rows, so after the region the output
  rows hold `rowsOut` of the arrays the region found, and the reshape after the region lays them out as batch × row × channel.
-/
import proofs.«173353_j12506944766463_2_alg».proof.Proof.BodyValue
import proofs.«173353_j12506944766463_2_alg».proof.Proof.BlockReads

set_option maxRecDepth 16384

noncomputable section

open scoped BigOperators

namespace Cert.KernelIdeal.KernelValue

open Cert.KernelIdeal Cert.KernelIdeal.Gen Idealize.ShloMosaic Idealize.ShloMosaic.TcCoe Idealize.SL.Sem
  Idealize.ShloMosaic.StableHlo Idealize.ShloMosaic.ValueIdx Cert.SparseProduct
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output rows as one function of the rows `X`, the two matrices and the bias row. -/
def rowsOut (X : S32768x768.Idx → EReal) (A B : S768x768.Idx → EReal) (bias : S1x768.Idx → EReal) : S32768x768.Idx → EReal :=
  fun i => (∑ d : Fin 768, sparsify (∑ c : Fin 768, X (ix2 (⟨(i 0).val, (i 0).isLt⟩ : Fin 32768) c) * A (ix2 d c))
      * B (ix2 (⟨(i 1).val, (i 1).isLt⟩ : Fin 768) d))
    + bias (ix2 (0 : Fin 1) (⟨(i 1).val, (i 1).isLt⟩ : Fin 768))

theorem rowsOut_apply (X : S32768x768.Idx → EReal) (A B : S768x768.Idx → EReal) (bias : S1x768.Idx → EReal) (q : Fin 32768) (o : Fin 768) :
    rowsOut X A B bias (ix2 q o)
      = (∑ d : Fin 768, sparsify (∑ c : Fin 768, X (ix2 q c) * A (ix2 d c)) * B (ix2 o d)) + bias (ix2 (0 : Fin 1) o) := rfl

/-! The four arrays the region reads, as it finds them on core `c`, typed over their literal shapes. -/

abbrev entRows (c : Dev nD) : S32768x768.Idx → EReal := V m c main_v0
abbrev entRot (c : Dev nD) : S768x768.Idx → EReal := V m c main_v3
abbrev entProd (c : Dev nD) : S768x768.Idx → EReal := V m c main_v4
abbrev entBias (c : Dev nD) : S1x768.Idx → EReal := V m c main_v1

/-- The output rows after the region, of the arrays the region finds. -/
abbrev rowsFinal (c : Dev nD) : S32768x768.Idx → EReal :=
  rowsOut (entRows m c) (entRot m c) (entProd m c) (entBias m c)

theorem rowsFinal_apply (c : Dev nD) (q : Fin 32768) (o : Fin 768) :
    rowsFinal m c (ix2 q o)
      = (∑ d : Fin 768, sparsify (∑ k : Fin 768, entRows m c (ix2 q k) * entRot m c (ix2 d k)) * entProd m c (ix2 o d))
        + entBias m c (ix2 (0 : Fin 1) o) := rfl

/-- What point `t` writes back is tile `t` of the output rows. -/
theorem flushed_eq (c : Dev nD) (t : Fin cfg0.N) :
    (dats m 0 c).flushed 4 t = ((cfg0.win 4).blk t).view.read (Elt Ideal) (rowsFinal m c) := by
  show (cfg0.win 4).cut (grid0.coords t) ((dats m 0 c).after 4 t) = _
  rw [after0_4]
  unfold out0_4
  rw [View.canon_unit_zero hz]
  simp only [View.ld_unit_zero (S := S1024x768) hz, View.ld_unit_zero (S := S768x768) hz, View.ld_unit_zero (S := S1x768) hz]
  funext j
  obtain ⟨p, o, rfl⟩ : ∃ (p : Fin 1024) (o : Fin 768), j = ix2 p o := ⟨j 0, j 1, eq_ix2 j⟩
  have hq : t.val * 1024 + p.val < 32768 := by have := BlockReads.point_lt t; have := p.isLt; omega
  rw [View.read_apply]
  show k0_pay1 (iblk m c 0 t) (iblk m c 1 t) (iblk m c 2 t) (iblk m c 3 t) (ix2 p o)
    = rowsFinal m c (((cfg0.win 4).blk t).view.emb (ix2 p o))
  rw [BlockReads.out_emb t p o ⟨_, hq⟩ rfl, rowsFinal_apply]
  refine (BodyValue.payload_apply (iblk m c 0 t) (iblk m c 1 t) (iblk m c 2 t) (iblk m c 3 t) p o).trans ?_
  simp only [BlockReads.rows_blk m c t p _ ⟨_, hq⟩ rfl, BlockReads.rot_blk, BlockReads.prod_blk, BlockReads.bias_blk]
  try rfl

/-- An index of the output rows is in point `t`'s tile iff each coordinate is in the tile's range on its axis. -/
theorem mem_blk (t : Fin cfg0.N) (i : S32768x768.Idx) :
    i ∈ ((cfg0.win 4).blk t).view.set ↔ ∀ a : Fin 2, win0_4.index t a * S1024x768.size a ≤ (i a).val
      ∧ (i a).val < win0_4.index t a * S1024x768.size a + S1024x768.size a := by
  show i ∈ ((View.whole main_v5).slice (win0_4.rect t)).set ↔ _
  rw [View.set_slice_whole, Rect.mem_set_unit]
  exact Iff.rfl

/-- Every output row is in some point's tile: row `r` in the tile of point `r / 1024`. -/
theorem cover (i : S32768x768.Idx) : ∃ t : Fin cfg0.N, (cfg0.win 4).flush t = true ∧ i ∈ ((cfg0.win 4).blk t).view.set := by
  have hi0 : (i 0).val < 32768 := (i 0).isLt
  have hi1 : (i 1).val < 768 := (i 1).isLt
  have hN : cfg0.N = 32 := N_0
  have ht : (i 0).val / 1024 < cfg0.N := by rw [hN]; omega
  obtain ⟨-, -, -, -, -, -, -, -, e0, e1⟩ := BlockReads.index_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_4.index ⟨(i 0).val / 1024, ht⟩ (1 : Fin 2) * 768 ≤ (i 1).val
      ∧ (i 1).val < win0_4.index ⟨(i 0).val / 1024, ht⟩ (1 : Fin 2) * 768 + 768
    rw [e1]
    omega

/-- The output rows after the region. -/
theorem final (c : Dev nD) : (dats m 0 c).arrAt 4 cfg0.N = rowsFinal m c :=
  (dats m 0 c).arrAt_eq_of_cover 4 (rowsFinal m c) (fun t _ => flushed_eq m c t) cover

/-- The kernel's result: the output rows laid out as batch × row × channel. -/
abbrev result (c : Dev nD) : S8x4096x768.Idx → EReal :=
  shapeCast S8x4096x768 (rowsFinal m c) shapeCasts_S32768x768_S8x4096x768

/-- The reshape after the region reads the output rows the region left. -/
theorem tail_eq (c : Dev nD) :
    (Pipeline.afterTail₀ cfgs (dats m) 0 (V0 m) [hostOps1] c main_v6 : S8x4096x768.Idx → EReal) = result m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = rowsFinal m c := (Pipeline.withArrays_arr spec0 launch0.win.arr_inj c _ _ 4).trans (final m c)
  exact congrArg (fun v : S32768x768.Idx → EReal => shapeCast S8x4096x768 v shapeCasts_S32768x768_S8x4096x768) e

/-- The kernel's run, read: every weakly fair execution terminates with the result array at `result` and the five argument
    arrays as launched. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.EntryArrays.lean ====
/-
  The arrays the region finds. Before the region the host lays the input out as 32768 rows, the bias as one row, narrows `U`
  to sixteen bits (the identity on the extended reals), and forms the product matrix `C(o,d) = Σ_k VT(o,k) · W(k,d)`, narrowed
  likewise. Each is read here at an index of the argument arrays.
-/
import proofs.«173353_j12506944766463_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.EntryArrays

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-! The five argument arrays on core `c`, as launched, typed over their literal shapes. -/

abbrev argX (c : Dev nD) : S8x4096x768.Idx → EReal := m ((c : Thread nD τ).loc main_arg0)
abbrev argW (c : Dev nD) : S768x768.Idx → EReal := m ((c : Thread nD τ).loc main_arg1)
abbrev argBias (c : Dev nD) : S768.Idx → EReal := m ((c : Thread nD τ).loc main_arg2)
abbrev argU (c : Dev nD) : S768x768.Idx → EReal := m ((c : Thread nD τ).loc main_arg3)
abbrev argVT (c : Dev nD) : S768x768.Idx → EReal := m ((c : Thread nD τ).loc main_arg4)

/-- The input as rows: the reshape of the first argument. -/
theorem rows_eq (c : Dev nD) : (V m c main_v0 : S32768x768.Idx → EReal)
    = shapeCast S32768x768 (argX m c) shapeCasts_S8x4096x768_S32768x768 := by
  show StableHlo.after hostOps0 (fun b => m (c, b)) (Proc.devRef .tc main_v0) = _
  after_results
  rfl

/-- Row `b · 4096 + r` of the rows is row `r` of batch `b`. -/
theorem rows_apply (c : Dev nD) (b : Fin 8) (r : Fin 4096) (k : Fin 768) (p : Fin 32768) (hp : p.val = b.val * 4096 + r.val) :
    (V m c main_v0 : S32768x768.Idx → EReal) (ix2 p k) = argX m c (ix3 b r k) := by
  rw [rows_eq]
  exact shapeCast_apply _ _ _ _ (by
    show (S8x4096x768.rowMajor (ix3 b r k)).val = (S32768x768.rowMajor (ix2 p k)).val
    rw [Shape.rowMajor_val_three, Shape.rowMajor_val_two]
    show (b.val * 4096 + r.val) * 768 + k.val = p.val * 768 + k.val
    rw [hp])

/-- The bias as one row: the reshape of the third argument. -/
theorem bias_eq (c : Dev nD) : (V m c main_v1 : S1x768.Idx → EReal)
    = shapeCast S1x768 (argBias m c) shapeCasts_S768_S1x768 := by
  show StableHlo.after hostOps0 (fun b => m (c, b)) (Proc.devRef .tc main_v1) = _
  after_results
  rfl

theorem bias_apply (c : Dev nD) (o : Fin 768) :
    (V m c main_v1 : S1x768.Idx → EReal) (ix2 (0 : Fin 1) o) = argBias m c (ix1 o) := by
  rw [bias_eq]
  exact shapeCast_a_1a_apply _ _ _ _

/-- The rotation matrix, narrowed: the fourth argument itself. -/
theorem rot_eq (c : Dev nD) : (V m c main_v3 : S768x768.Idx → EReal) = argU m c := by
  show StableHlo.after hostOps0 (fun b => m (c, b)) (Proc.devRef .tc main_v3) = _
  after_results
  rfl

/-- The product matrix, narrowed: the fifth argument times the second. -/
theorem prod_eq (c : Dev nD) : (V m c main_v4 : S768x768.Idx → EReal)
    = Host.dotGeneral (F := Ideal) (φ₁ := .f32) (φ₂ := .f32) dot_S768x768_S768x768_S768x768_1_0_0_1_n_n none (argVT m c) (argW m c) := by
  show StableHlo.after hostOps0 (fun b => m (c, b)) (Proc.devRef .tc main_v4) = _
  after_results
  rfl

theorem prod_lhs0 (i : S768x768.Idx) (q : dot_S768x768_S768x768_S768x768_1_0_0_1_n_n.contr.Idx) :
    (dot_S768x768_S768x768_S768x768_1_0_0_1_n_n.lhsIdx i q 0).val = (i 0).val := by
  unfold DotDims.lhsIdx
  rw [dif_neg (show ¬(0 : Fin S768x768.rank) ∈ dot_S768x768_S768x768_S768x768_1_0_0_1_n_n.lhsBatch by decide),
    dif_pos (show (0 : Fin S768x768.rank) ∈ dot_S768x768_S768x768_S768x768_1_0_0_1_n_n.lhsNonContracting by decide)]
  rfl
theorem prod_lhs1 (i : S768x768.Idx) (q : dot_S768x768_S768x768_S768x768_1_0_0_1_n_n.contr.Idx) :
    (dot_S768x768_S768x768_S768x768_1_0_0_1_n_n.lhsIdx i q 1).val = (q ⟨0, by decide⟩).val :=
  dot_S768x768_S768x768_S768x768_1_0_0_1_n_n.lhsIdx_val_of_single rfl i q
theorem prod_rhs0 (i : S768x768.Idx) (q : dot_S768x768_S768x768_S768x768_1_0_0_1_n_n.contr.Idx) :
    (dot_S768x768_S768x768_S768x768_1_0_0_1_n_n.rhsIdx i q 0).val = (q ⟨0, by decide⟩).val :=
  dot_S768x768_S768x768_S768x768_1_0_0_1_n_n.rhsIdx_val_of_single rfl i q
theorem prod_rhs1 (i : S768x768.Idx) (q : dot_S768x768_S768x768_S768x768_1_0_0_1_n_n.contr.Idx) :
    (dot_S768x768_S768x768_S768x768_1_0_0_1_n_n.rhsIdx i q 1).val = (i 1).val := by
  unfold DotDims.rhsIdx
  rw [dif_neg (show ¬(1 : Fin S768x768.rank) ∈ dot_S768x768_S768x768_S768x768_1_0_0_1_n_n.rhsBatch by decide),
    dif_pos (show (1 : Fin S768x768.rank) ∈ dot_S768x768_S768x768_S768x768_1_0_0_1_n_n.rhsNonContracting by decide)]
  rfl

/-- A product contracting the left operand's last axis with the right operand's first, at `(o, d)`: the sum over `k` of
    the left at `(o, k)` times the right at `(k, d)`. -/
theorem dot_apply (l r : S768x768.Idx → EReal) (o d : Fin 768) :
    Host.dotGeneral (F := Ideal) (φ₁ := .f32) (φ₂ := .f32) dot_S768x768_S768x768_S768x768_1_0_0_1_n_n none l r (ix2 o d)
      = ∑ k : Fin 768, l (ix2 o k) * r (ix2 k d) := by
  simp only [Host.dotGeneral]
  rw [Ideal.dotGeneral_apply, ← Equiv.sum_comp (contrEquiv1 dot_S768x768_S768x768_S768x768_1_0_0_1_n_n 768 rfl rfl).symm]
  refine Finset.sum_congr rfl fun k _ => ?_
  have hk := contrEquiv1_symm_val dot_S768x768_S768x768_S768x768_1_0_0_1_n_n 768 rfl rfl k
  have el : dot_S768x768_S768x768_S768x768_1_0_0_1_n_n.lhsIdx (ix2 o d) ((contrEquiv1 dot_S768x768_S768x768_S768x768_1_0_0_1_n_n 768 rfl rfl).symm k) = ix2 o k :=
    funext fun a => Fin.ext (by
      match a with
      | ⟨0, _⟩ => exact prod_lhs0 _ _
      | ⟨1, _⟩ => exact (prod_lhs1 _ _).trans hk)
  have er : dot_S768x768_S768x768_S768x768_1_0_0_1_n_n.rhsIdx (ix2 o d) ((contrEquiv1 dot_S768x768_S768x768_S768x768_1_0_0_1_n_n 768 rfl rfl).symm k) = ix2 k d :=
    funext fun a => Fin.ext (by
      match a with
      | ⟨0, _⟩ => exact (prod_rhs0 _ _).trans hk
      | ⟨1, _⟩ => exact prod_rhs1 _ _)
  rw [el, er]

/-- The product matrix at `(o, d)`: the sum over `k` of the fifth argument at `(o, k)` times the second at `(k, d)`. -/
theorem prod_apply (c : Dev nD) (o d : Fin 768) :
    (V m c main_v4 : S768x768.Idx → EReal) (ix2 o d) = ∑ k : Fin 768, argVT m c (ix2 o k) * argW m c (ix2 k d) := by
  rw [prod_eq]
  exact dot_apply _ _ o d

end Cert.KernelIdeal.EntryArrays

end
-- ==== Proof.RefValue.lean ====
/-
  The reference's result, entry by entry. At batch `b`, row `r` and output channel `o` the reference holds
  `Σ_k (Σ_d s(b,r,d) · W(k,d)) · VT(o,k) + bias(o)`, where `s(b,r,d)` is the threshold-sparsified rotation
  `Σ_c x(b,r,c) · U(d,c)`: its three contractions read as sums, the threshold broadcast and the zero broadcast read as
  their words, the bias broadcast over batch and row read at its channel.
-/
import proofs.«173353_j12506944766463_2_alg».proof.Proof.Gen.ReferenceIdeal.Read
import proofs.«173353_j12506944766463_2_alg».proof.Proof.SparseProduct

noncomputable section

open scoped BigOperators

namespace Cert.ReferenceIdeal.RefValue

open Cert.ReferenceIdeal Cert.ReferenceIdeal.Read Idealize.ShloMosaic Idealize.ShloMosaic.ValueIdx Cert.SparseProduct

/-! The operand indices of the three contractions and of the bias broadcasts, by coordinates. -/

theorem lidx0 (b : Fin 8) (r : Fin 4096) (o : Fin 768) (k : Fin 768) : lidx_main_v0 (ix3 b r o) k = ix3 b r k :=
  funext fun a => Fin.ext (by match a with | ⟨0, _⟩ => rfl | ⟨1, _⟩ => rfl | ⟨2, _⟩ => rfl)
theorem ridx0 (b : Fin 8) (r : Fin 4096) (o : Fin 768) (k : Fin 768) : ridx_main_v0 (ix3 b r o) k = ix2 o k :=
  funext fun a => Fin.ext (by match a with | ⟨0, _⟩ => rfl | ⟨1, _⟩ => rfl)
theorem lidx5 (b : Fin 8) (r : Fin 4096) (o : Fin 768) (k : Fin 768) : lidx_main_v5 (ix3 b r o) k = ix3 b r k :=
  funext fun a => Fin.ext (by match a with | ⟨0, _⟩ => rfl | ⟨1, _⟩ => rfl | ⟨2, _⟩ => rfl)
theorem ridx5 (b : Fin 8) (r : Fin 4096) (o : Fin 768) (k : Fin 768) : ridx_main_v5 (ix3 b r o) k = ix2 o k :=
  funext fun a => Fin.ext (by match a with | ⟨0, _⟩ => rfl | ⟨1, _⟩ => rfl)
theorem lidx6 (b : Fin 8) (r : Fin 4096) (o : Fin 768) (k : Fin 768) : lidx_main_v6 (ix3 b r o) k = ix3 b r k :=
  funext fun a => Fin.ext (by match a with | ⟨0, _⟩ => rfl | ⟨1, _⟩ => rfl | ⟨2, _⟩ => rfl)
theorem ridx6 (b : Fin 8) (r : Fin 4096) (o : Fin 768) (k : Fin 768) : ridx_main_v6 (ix3 b r o) k = ix2 o k :=
  funext fun a => Fin.ext (by match a with | ⟨0, _⟩ => rfl | ⟨1, _⟩ => rfl)
theorem idx78 (b : Fin 8) (r : Fin 4096) (o : Fin 768) : idx_main_v7 (idx_main_v8 (ix3 b r o)) = ix1 o :=
  funext fun a => Fin.ext (by match a with | ⟨0, _⟩ => rfl)

/-- The sparsified rotation at `(b, r, d)`. -/
theorem masked_apply (x0 : S8x4096x768.Idx → EReal) (x3 : S768x768.Idx → EReal) (b : Fin 8) (r : Fin 4096) (d : Fin 768) :
    val_main_v4 (F := Ideal) x0 x3 (ix3 b r d) = sparsify (∑ c : Fin 768, x0 (ix3 b r c) * x3 (ix2 d c)) := by
  rw [val_main_v4_apply, val_main_v3_apply, val_main_v1_apply, val_main_v2_apply, val_main_cst_apply,
    val_main_call0_v0_apply, val_main_cst_0_apply, val_main_v0_apply]
  simp only [lidx0, ridx0]
  rfl

/-- The reference's result at `(b, r, o)`. -/
theorem result_apply (x0 : S8x4096x768.Idx → EReal) (x1 : S768x768.Idx → EReal) (x2 : S768.Idx → EReal) (x3 x4 : S768x768.Idx → EReal)
    (b : Fin 8) (r : Fin 4096) (o : Fin 768) :
    val_main_v9 (F := Ideal) x0 x1 x2 x3 x4 (ix3 b r o)
      = (∑ k : Fin 768, (∑ d : Fin 768, sparsify (∑ c : Fin 768, x0 (ix3 b r c) * x3 (ix2 d c)) * x1 (ix2 k d)) * x4 (ix2 o k))
        + x2 (ix1 o) := by
  rw [val_main_v9_apply, val_main_v6_apply, val_main_v8_apply, val_main_v7_apply, idx78]
  simp only [lidx6, ridx6, val_main_v5_apply, lidx5, ridx5, masked_apply]
  rfl

end Cert.ReferenceIdeal.RefValue

end
-- ==== Proof.FiniteInputs.lean ====
/-
  From the precondition to real entries. The precondition says, of each of the five argument arrays, that every entry's
  magnitude is below the pattern of +∞; on the extended reals that leaves exactly the reals.
-/
import proofs.«173353_j12506944766463_2_alg».proof.Pre_finite_inputs
import proofs.«173353_j12506944766463_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

/-- The scalar shape has one index. -/
instance : Subsingleton S_.Idx := ⟨fun a b => funext fun d => d.elim0⟩

/-- An extended real whose magnitude `max x (-x)` is below +∞ is a real: both infinities have magnitude +∞. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  have htop : Ideal.ofBits .f32 0x7F800000#32 = (⊤ : EReal) := by simp [Ideal.ofBits, Ideal.ieee]
  rw [Ideal.cmpf_def, Ideal.hostAbsf_def, Ideal.absf_def, htop] at h
  induction x using EReal.rec with
  | bot => simp [Ideal.cmp] at h
  | top => simp [Ideal.cmp] at h
  | coe r => exact ⟨r, rfl⟩

/-- Under the precondition every entry of every argument array is a real: the conjunction splits into its five
    `all`-reductions, each of which says its comparison holds at every index. -/
theorem reals [Facts] (a0 : FVec Ideal S8x4096x768 .f32) (a1 : FVec Ideal S768x768 .f32) (a2 : FVec Ideal S768 .f32)
    (a3 a4 : FVec Ideal S768x768 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.FiniteInputs

end
-- ==== Proof.Bridge.lean ====
/-
  The two results are one function of the arguments. At batch `b`, row `r` and channel `o` the kernel's result is the
  sparsified rotation of row `(b, r)` times row `o` of the product matrix `VT · W`, plus the bias; the reference's is that row
  times `W`, then times `VT`, plus the bias. Under the precondition every entry of the four operands is a real, and among
  reals the two groupings agree.
-/
import proofs.«173353_j12506944766463_2_alg».proof.Proof.KernelValue
import proofs.«173353_j12506944766463_2_alg».proof.Proof.EntryArrays
import proofs.«173353_j12506944766463_2_alg».proof.Proof.RefValue
import proofs.«173353_j12506944766463_2_alg».proof.Proof.FiniteInputs

noncomputable section

open scoped BigOperators

namespace Cert.Bridge

open Cert.KernelIdeal Cert.KernelIdeal.Gen Idealize.ShloMosaic Idealize.ShloMosaic.TcCoe Idealize.SL.Sem
  Idealize.ShloMosaic.ValueIdx Cert.SparseProduct Cert.KernelIdeal.EntryArrays

variable (m : (ℓ : Loc nD τ sig) → Buf (Elt Ideal) ℓ)

/-- The kernel's result at `(b, r, o)`, over the argument arrays. -/
theorem kernel_apply (c : Dev nD) (b : Fin 8) (r : Fin 4096) (o : Fin 768) :
    KernelValue.result m c (ix3 b r o)
      = (∑ d : Fin 768, sparsify (∑ k : Fin 768, argX m c (ix3 b r k) * argU m c (ix2 d k))
          * ∑ k : Fin 768, argVT m c (ix2 o k) * argW m c (ix2 k d))
        + argBias m c (ix1 o) := by
  have hq : b.val * 4096 + r.val < 32768 := by have := b.isLt; have := r.isLt; omega
  refine (shapeCast_apply (KernelValue.rowsFinal m c) shapeCasts_S32768x768_S8x4096x768 (ix3 b r o) (ix2 ⟨_, hq⟩ o) (by
    show (S32768x768.rowMajor (ix2 (⟨b.val * 4096 + r.val, hq⟩ : Fin 32768) o)).val = (S8x4096x768.rowMajor (ix3 b r o)).val
    rw [Shape.rowMajor_val_two, Shape.rowMajor_val_three]
    rfl)).trans ?_
  rw [KernelValue.rowsFinal_apply]
  refine congrArg₂ (· + ·) (Finset.sum_congr rfl fun d _ => ?_) (bias_apply m c o)
  refine congrArg₂ (· * ·) (congrArg sparsify (Finset.sum_congr rfl fun k _ => ?_)) (prod_apply m c o d)
  exact congrArg₂ (· * ·) (rows_apply m c b r k ⟨_, hq⟩ rfl) (congrFun (rot_eq m c) (ix2 d k))

/-- Under the precondition the kernel's result is the reference's stage of the same arguments. -/
theorem kernel_eq_reference (c : Dev nD)
    (hfin : Cert.Pre_finite_inputs.fn (F := Ideal) (argX m c) (argW m c) (argBias m c) (argU m c) (argVT m c) = fun _ => 1#1) :
    KernelValue.result m c
      = Cert.ReferenceIdeal.Read.val_main_v9 (F := Ideal) (argX m c) (argW m c) (argBias m c) (argU m c) (argVT m c) := by
  obtain ⟨hX, hW, -, hU, hVT⟩ := Cert.FiniteInputs.reals (argX m c) (argW m c) (argBias m c) (argU m c) (argVT m c) hfin
  funext i
  obtain ⟨b, r, o, rfl⟩ : ∃ (b : Fin 8) (r : Fin 4096) (o : Fin 768), i = ix3 b r o := ⟨i 0, i 1, i 2, eq_ix3 i⟩
  rw [kernel_apply, Cert.ReferenceIdeal.RefValue.result_apply]
  refine congrArg (· + argBias m c (ix1 o)) ?_
  exact fused_eq_chained (fun k => argX m c (ix3 b r k)) (fun d k => argU m c (ix2 d k)) (fun k d => argW m c (ix2 k d))
    (fun k => argVT m c (ix2 o k)) (fun _ => hX _) (fun _ _ => hU _) (fun _ _ => hW _) (fun _ => hVT _)

end Cert.Bridge

end
-- ==== Proof.lean ====
/-
  A threshold-sparsified low-rank linear layer, fused against its three-product reference.

  Both programs rotate each of the 8 × 4096 input rows by `U` (`h = x · Uᵀ`), zero every entry of `h` whose magnitude does not
  exceed a threshold, and end by adding the bias. Between the two, the reference multiplies the sparsified row by `Wᵀ` and then
  by `VTᵀ`; the kernel multiplies it once by `(VT · W)ᵀ`, a product matrix formed before the launch, and runs over 32 tiles of
  1024 rows. Read on the extended reals (every change of float format the identity, every matrix product an exact sum) the two
  results differ only by the grouping `Σ_d s_d · (Σ_k VT_{ok} · W_{kd}) = Σ_k (Σ_d s_d · W_{kd}) · VT_{ok}`: distributivity and an
  exchange of sums, valid among reals. The precondition makes every input entry a real, so every `s_d` is one too.

  The modules: `SparseProduct` (the grouping law), `FiniteInputs` (the precondition gives reals), `RefValue` (the reference
  entry by entry), `BodyValue` (one tile of the kernel entry by entry), `EntryArrays` (the arrays formed before the launch),
  `BlockReads` (which rows each tile reads and writes), `KernelValue` (the tiles cover the output; the kernel's run),
  `Bridge` (the two results are one function). Here: the five claims.
-/
import proofs.«173353_j12506944766463_2_alg».proof.Defs
import proofs.«173353_j12506944766463_2_alg».proof.Proof.Gen.Kernel
import proofs.«173353_j12506944766463_2_alg».proof.Proof.Gen.Kernel.Skeleton
import proofs.«173353_j12506944766463_2_alg».proof.Proof.Gen.Kernel.Launch
import proofs.«173353_j12506944766463_2_alg».proof.Proof.Gen.Kernel.Points
import proofs.«173353_j12506944766463_2_alg».proof.Proof.Gen.Kernel.Frame
import proofs.«173353_j12506944766463_2_alg».proof.Proof.Gen.KernelIdeal
import proofs.«173353_j12506944766463_2_alg».proof.Proof.Gen.KernelIdeal.Skeleton
import proofs.«173353_j12506944766463_2_alg».proof.Proof.Gen.KernelIdeal.Launch
import proofs.«173353_j12506944766463_2_alg».proof.Proof.Gen.KernelIdeal.Points
import proofs.«173353_j12506944766463_2_alg».proof.Proof.Gen.KernelIdeal.Frame
import proofs.«173353_j12506944766463_2_alg».proof.Proof.Gen.ReferenceIdeal
import proofs.«173353_j12506944766463_2_alg».proof.Proof.Gen.ReferenceIdeal.Run
import proofs.«173353_j12506944766463_2_alg».proof.Proof.Gen.ReferenceIdeal.Read
import proofs.«173353_j12506944766463_2_alg».proof.Proof.Gen.Pre_finite_inputs
import proofs.«173353_j12506944766463_2_alg».proof.Proof.Bridge
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the kernel's result: the kernel by its run, the reference
    because its composed term, over the same arguments, is that function. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v9_eq]
  exact (Cert.Bridge.kernel_eq_reference m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
